-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x4096 : Shape := ⟨2, ![8, 4096]⟩
abbrev S512x256 : Shape := ⟨2, ![512, 256]⟩
abbrev S1024x256 : Shape := ⟨2, ![1024, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S8x4096x256 .f32) (main_arg1 : FVec F S8x4096x256 .f32) (main_arg2 : IVec S8x4096 32) (main_arg3 : FVec F S512x256 .f32) (main_arg4 : FVec F S1024x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Kernel.lean ====
abbrev S8x4096x256 : Shape := ⟨3, ![8, 4096, 256]⟩
abbrev S8x4096 : Shape := ⟨2, ![8, 4096]⟩
abbrev S512x256 : Shape := ⟨2, ![512, 256]⟩
abbrev S1024x256 : Shape := ⟨2, ![1024, 256]⟩
abbrev S1x512x256 : Shape := ⟨3, ![1, 512, 256]⟩
abbrev S256x512 : Shape := ⟨2, ![256, 512]⟩
abbrev S512x512 : Shape := ⟨2, ![512, 512]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096, .i32⟩
  | .hbm, ⟨3, _⟩ => ⟨S512x256, .f32⟩
  | .hbm, ⟨4, _⟩ => ⟨S1024x256, .f32⟩
  | .hbm, ⟨5, _⟩ => ⟨S8x4096x256, .f32⟩
  | .hbm, ⟨6, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S1024x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  transposes_S512x256_p1_0_S256x512 : S512x256.Transposes [1, 0] S256x512
  transposes_S1024x256_p1_0_S256x1024 : S1024x256.Transposes [1, 0] S256x1024
  reduces_S512x512_S512 : S512x512.Reduces [1] S512
  shapeCasts_S512_S512x1 : S512.ShapeCasts S512x1
  broadcasts_S512x1_S512x512 : S512x1.Broadcasts S512x512
  reduces_S512x1024_S512 : S512x1024.Reduces [1] S512
  broadcasts_S512x1_S512x1024 : S512x1.Broadcasts S512x1024
  shapeCasts_S512x256_S1x512x256 : S512x256.ShapeCasts S1x512x256
  dot_S512x256_S256x512_S512x512_1_0_0_1_n_n_wf : DotDims.WF S512x256 S256x512 S512x512 [1] [0] [0] [1] [] []
  dot_S512x256_S256x1024_S512x1024_1_0_0_1_n_n_wf : DotDims.WF S512x256 S256x1024 S512x1024 [1] [0] [0] [1] [] []
  dot_S512x512_S512x256_S512x256_1_0_0_1_n_n_wf : DotDims.WF S512x512 S512x256 S512x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x4096x256.size a
  hwx0_1 : ∀ i : grid0.Coords, EltTy.bits .f32 = 32 ∨ (Rect.block (s := S8x4096x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x4096x256.size a
  hwx0_4 : ∀ i : grid0.Coords, EltTy.bits .f32 = 32 ∨ (Rect.block (s := S8x4096x256) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S8x4096x256.size a
  hwx0_5 : ∀ i : grid0.Coords, EltTy.bits .f32 = 32 ∨ (Rect.block (s := S8x4096x256) S1x512x256.size (cc0_transform_5 i) (hinb0_5 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x4096 : Shape := ⟨2, ![8, 4096]⟩
abbrev S512x256 : Shape := ⟨2, ![512, 256]⟩
abbrev S1024x256 : Shape := ⟨2, ![1024, 256]⟩
abbrev S8x4096x512 : Shape := ⟨3, ![8, 4096, 512]⟩
abbrev S_ : Shape := ⟨0, ![]⟩
abbrev S8x4096x1 : Shape := ⟨3, ![8, 4096, 1]⟩
abbrev S8x4096x1024 : Shape := ⟨3, ![8, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096, .i32⟩
  | .hbm, ⟨3, _⟩ => ⟨S512x256, .f32⟩
  | .hbm, ⟨4, _⟩ => ⟨S1024x256, .f32⟩
  | .hbm, ⟨5, _⟩ => ⟨S8x4096x512, .f32⟩
  | .hbm, ⟨6, _⟩ => ⟨S_, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096x1, .f32⟩
  | .hbm, ⟨12, _⟩ => ⟨S8x4096x512, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x512, .f32⟩
  | .hbm, ⟨19, _⟩ => ⟨S8x4096x512, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S8x4096x256, .f32⟩
  | .hbm, ⟨36, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S8x4096x512_S8x4096_d2 : S8x4096x512.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x512_0_1_2 : S8x4096x1.BroadcastsInDim S8x4096x512 (![0, 1, 2] : Fin 3 → Fin S8x4096x512.rank)
  reducesTo_S8x4096x1024_S8x4096_d2 : S8x4096x1024.ReducesTo [2] S8x4096
  bcast_S8x4096x1_S8x4096x1024_0_1_2 : S8x4096x1.BroadcastsInDim S8x4096x1024 (![0, 1, 2] : Fin 3 → Fin S8x4096x1024.rank)
  dot_S8x4096x256_S512x256_S8x4096x512_2_1_01_0_n_n_wf : DotDims.WF S8x4096x256 S512x256 S8x4096x512 [2] [1] [0, 1] [0] [] []
  dot_S8x4096x256_S1024x256_S8x4096x1024_2_1_01_0_n_n_wf : DotDims.WF S8x4096x256 S1024x256 S8x4096x1024 [2] [1] [0, 1] [0] [] []
  dot_S8x4096x512_S512x256_S8x4096x256_2_0_01_1_n_n_wf : DotDims.WF S8x4096x512 S512x256 S8x4096x256 [2] [0] [0, 1] [1] [] []
  dot_S8x4096x1024_S1024x256_S8x4096x256_2_0_01_1_n_n_wf : DotDims.WF S8x4096x1024 S1024x256 S8x4096x256 [2] [0] [0, 1] [1] [] []

variable [Facts₀]

def dot_S8x4096x256_S512x256_S8x4096x512_2_1_01_0_n_n : DotDims S8x4096x256 S512x256 S8x4096x512 where
  lhsContracting := [2]
  rhsContracting := [1]
  lhsNonContracting := [0, 1]
  rhsNonContracting := [0]
  lhsBatch := []
  rhsBatch := []
  wf := dot_S8x4096x256_S512x256_S8x4096x512_2_1_01_0_n_n_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf
def dot_S8x4096x512_S512x256_S8x4096x256_2_0_01_1_n_n : DotDims S8x4096x512 S512x256 S8x4096x256 where
  lhsContracting := [2]
  rhsContracting := [0]
  lhsNonContracting := [0, 1]
  rhsNonContracting := [1]
  lhsBatch := []
  rhsBatch := []
  wf := dot_S8x4096x512_S512x256_S8x4096x256_2_0_01_1_n_n_wf
def dot_S8x4096x1024_S1024x256_S8x4096x256_2_0_01_1_n_n : DotDims S8x4096x1024 S1024x256 S8x4096x256 where
  lhsContracting := [2]
  rhsContracting := [0]
  lhsNonContracting := [0, 1]
  rhsNonContracting := [1]
  lhsBatch := []
  rhsBatch := []
  wf := dot_S8x4096x1024_S1024x256_S8x4096x256_2_0_01_1_n_n_wf

class Facts : Prop extends Facts₀ where

variable [Facts]
-- ==== Proof.LibTileFlatten.lean ====
/-
  A stack of matrices flattened for a matrix product, and cut back.

  A [a, b, n] stack becomes a [m, n] matrix with m = a·b (what a reshape before a matrix product does) and a [m, n]
  result is cut back into a [a, b, n] stack: a cast keeps the row-major position, so row `r = p·b + q` of the matrix is
  entry (p, q) of the stack. With them, two repeats read at an index: a [a, b, 1] stack repeated along its last axis,
  and a vector [n] given two leading unit axes. Every lemma is generic in the extents and has both indices written by
  their coordinates.
-/
import Idealize.ShloMosaic.Lib.ValueLayout

namespace Cert.Lib

open Idealize.ShloMosaic Idealize.ShloMosaic.ValueIdx

variable {α : Type}

/-- A [a, b, n] stack flattened to a [m, n] matrix (m = a·b) reads, at row `r = p·b + q` and column k, the stack at
    (p, q, k). -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- A [m, n] matrix (m = a·b) cut into a [a, b, n] stack reads, at (p, q, k), the matrix at row `r = p·b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

/-- A [a, b, 1] stack repeated along its last axis to [a, b, n] reads, at (p, q, k), the stack at (p, q, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [n] given two leading unit axes reads, at (u, v, k), the vector at k. -/
theorem shapeCast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]
    simp)

end Cert.Lib
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibLabelAttention.lean ====
/-
  Label attention of one row against a table of label embeddings, on the extended reals.

  A row `x` of `K` numbers is scored against each of the `N` label rows `w n` by the inner product
  `s n = ∑ k, x k * w n k`. The scores become weights by a softmax: each score less the row's maximum is
  exponentiated, and each exponential is divided by the sum of all of them. The result is the weighted sum of the
  label rows, `out d = ∑ n, weight n * w n d`.

  The row's maximum is the fold of `max` over the scores from -∞, compared once more against -∞ (the form both
  programs write). The word for -∞ is kept as its bit pattern and never evaluated: it is the same word on both sides.
  Nothing here needs the entries to be finite — the two programs are compared as the same expression, not through
  any law of the extended reals that fails at an infinity. `whole` is the same for every row of a [B, S, K] array.
-/
import Idealize.ShloMosaic.PureOps.Ideal
import Idealize.ShloMosaic.Lib.ValueIdx

noncomputable section

open scoped BigOperators

namespace Cert.LabelAttention

open Idealize.ShloMosaic Idealize.ShloMosaic.ValueIdx

variable {K N : ℕ}

/-- The f32 word for -∞, as an extended real (never unfolded). -/
def negInf : EReal := Ideal.ofBits .f32 0xFF800000#32

/-- The score of the row against label `n`: their inner product. -/
def score (x : Fin K → EReal) (w : Fin N → Fin K → EReal) (n : Fin N) : EReal := ∑ k : Fin K, x k * w n k

/-- The largest score of the row: the fold of `max` from -∞, compared once more against -∞. -/
def rowMax (s : Fin N → EReal) : EReal := max negInf ((Finset.univ : Finset (Fin N)).fold max negInf s)

/-- The unnormalised weight of label `n`: the exponential of its score less the row's maximum. -/
def expShifted (s : Fin N → EReal) (n : Fin N) : EReal := Ideal.exp (s n - rowMax s)

/-- The softmax weight of label `n`: its exponential over the sum of the row's exponentials. -/
def weight (s : Fin N → EReal) (n : Fin N) : EReal := Ideal.div (expShifted s n) (∑ n' : Fin N, expShifted s n')

/-- Entry `d` of the row's result: the label rows weighed by the softmax of the row's scores. -/
def row (x : Fin K → EReal) (w : Fin N → Fin K → EReal) (d : Fin K) : EReal :=
  ∑ n : Fin N, weight (score x w) n * w n d

/-- Label attention of every row of a [B, S, K] array of activations against one [N, K] table, as one function of
    the two arrays, index by index: entry (b, s, d) is the label attention of row (b, s) at entry d. -/
def whole {B S : ℕ} (x : (⟨3, ![B, S, K]⟩ : Shape).Idx → EReal) (w : (⟨2, ![N, K]⟩ : Shape).Idx → EReal) :
    (⟨3, ![B, S, K]⟩ : Shape).Idx → EReal :=
  fun i => row (fun k => x (ix3 (i 0) (i 1) k)) (fun n k => w (ix2 n k)) (i 2)

end Cert.LabelAttention

end
-- ==== Proof.LibLabelAttentionTile.lean ====
/-
  One tile of label attention, as a kernel body computes it, read at an entry.

  The tile holds `A` rows `x` of `K` numbers and a table `w` of `N` label rows. The body forms the scores as the matrix
  product of `x` with the transposed table, takes each row's maximum (a reduction along the row from -∞, then a maximum
  against a splat of -∞), subtracts it along the row, exponentiates, divides by the row's sum of exponentials (a reduction
  along the row, kept as a column and repeated along the row), and multiplies the weights into the table. Format changes
  between the steps are the identity on extended reals. Read at (p, d) the tile is the label attention of row p, entry d
  (`Cert.LabelAttention.row`): only row p of `x` enters. Generic in `A`, `K`, `N`; the two products are plain ones
  (contract axis 1 of the left operand with axis 0 of the right, no batch axes) under any dimension record equal to
  the plain one.
-/
import Idealize.ShloMosaic.Lib.ValueLayout
import proofs.«146571_j3624952398168_1_alg».proof.Proof.LibMatmul2
import proofs.«146571_j3624952398168_1_alg».proof.Proof.LibKeepdims
import proofs.«146571_j3624952398168_1_alg».proof.Proof.LibLabelAttention

noncomputable section

open scoped BigOperators

namespace Cert.LabelAttention

open Idealize.ShloMosaic Idealize.ShloMosaic.ValueIdx Cert.Lib

variable {A K N : ℕ}

section Softmax

variable (hR : (⟨2, ![A, N]⟩ : Shape).Reduces [1] ⟨1, ![A]⟩)
  (hC : (⟨1, ![A]⟩ : Shape).ShapeCasts ⟨2, ![A, 1]⟩)
  (hB : (⟨2, ![A, 1]⟩ : Shape).Broadcasts ⟨2, ![A, N]⟩)
  (hφ : FKind.Formats .f32)
  (hmax : (0xFF800000#32 : BitVec FTy.f32.bits) = FKind.maximumf.neutral .f32 hφ)
  (hadd : (0x00000000#32 : BitVec FTy.f32.bits) = FKind.add.neutral .f32 hφ)

/-- The scores less each row's maximum, exponentiated, as a body writes it. -/
def tileExp (S : FVec Ideal ⟨2, ![A, N]⟩ .f32) : FVec Ideal ⟨2, ![A, N]⟩ .f32 :=
  exp (subf S (broadcastTo ⟨2, ![A, N]⟩ (shapeCast ⟨2, ![A, 1]⟩
    (maximumf (broadcast ⟨1, ![A]⟩ (Scalar.ofBits .f32 0xFF800000#32))
      (multiReduction .maximumf [1] ⟨1, ![A]⟩ S 0xFF800000#32 hR hφ hmax)) hC) hB))

/-- Each exponential over its row's sum of exponentials, as a body writes it. -/
def tileWeights (S : FVec Ideal ⟨2, ![A, N]⟩ .f32) : FVec Ideal ⟨2, ![A, N]⟩ .f32 :=
  divf (tileExp hR hC hB hφ hmax S) (broadcastTo ⟨2, ![A, N]⟩ (shapeCast ⟨2, ![A, 1]⟩
    (multiReduction .add [1] ⟨1, ![A]⟩ (tileExp hR hC hB hφ hmax S) 0x00000000#32 hR hφ hadd) hC) hB)

/-- At (p, n) the exponential is that of score n of row p less row p's maximum. -/
theorem tileExp_apply (S : FVec Ideal ⟨2, ![A, N]⟩ .f32) (p : Fin A) (n : Fin N) :
    tileExp hR hC hB hφ hmax S (ix2 p n) = expShifted (fun n' => S (ix2 p n')) n := by
  unfold tileExp expShifted rowMax
  show Ideal.exp (S (ix2 p n) - broadcastTo ⟨2, ![A, N]⟩ (shapeCast ⟨2, ![A, 1]⟩
    (maximumf (broadcast ⟨1, ![A]⟩ (Scalar.ofBits .f32 0xFF800000#32))
      (multiReduction .maximumf [1] ⟨1, ![A]⟩ S 0xFF800000#32 hR hφ hmax)) hC) hB (ix2 p n)) = _
  rw [keepdims_apply _ hC hB p n]
  show Ideal.exp (S (ix2 p n) - max (Ideal.ofBits .f32 0xFF800000#32)
    (multiReduction .maximumf [1] ⟨1, ![A]⟩ S 0xFF800000#32 hR hφ hmax (ix1 p))) = _
  rw [rowMax_apply S _ hR hφ hmax p]
  rfl

/-- At (p, n) the weight is the softmax weight of label n in row p. -/
theorem tileWeights_apply (S : FVec Ideal ⟨2, ![A, N]⟩ .f32) (p : Fin A) (n : Fin N) :
    tileWeights hR hC hB hφ hmax hadd S (ix2 p n) = weight (fun n' => S (ix2 p n')) n := by
  unfold tileWeights weight
  show Ideal.div (tileExp hR hC hB hφ hmax S (ix2 p n)) (broadcastTo ⟨2, ![A, N]⟩ (shapeCast ⟨2, ![A, 1]⟩
    (multiReduction .add [1] ⟨1, ![A]⟩ (tileExp hR hC hB hφ hmax S) 0x00000000#32 hR hφ hadd) hC) hB (ix2 p n)) = _
  rw [keepdims_apply _ hC hB p n, rowSum_apply _ _ hR hφ hadd p, tileExp_apply]
  refine congrArg (Ideal.div _) (Finset.sum_congr rfl fun n' _ => ?_)
  exact tileExp_apply hR hC hB hφ hmax S p n'

end Softmax

/-- The scores of a tile against the transposed table, at (p, n): the inner product of row p with label row n. -/
theorem tile_scores_apply
    (D : DotDims ⟨2, ![A, K]⟩ ⟨2, ![K, N]⟩ ⟨2, ![A, N]⟩)
    (wf : DotDims.WF ⟨2, ![A, K]⟩ ⟨2, ![K, N]⟩ ⟨2, ![A, N]⟩ [1] [0] [0] [1] [] []) (hD : D = plain2 wf)
    (hT : (⟨2, ![N, K]⟩ : Shape).Transposes [1, 0] ⟨2, ![K, N]⟩)
    {φ₁ φ₂ : FTy} (x : FVec Ideal ⟨2, ![A, K]⟩ φ₁) (w : FVec Ideal ⟨2, ![N, K]⟩ φ₂) (p : Fin A) (n : Fin N) :
    matmul D none x (transpose ⟨2, ![K, N]⟩ [1, 0] w hT) (constant ⟨2, ![A, N]⟩ .f32 0x00000000#32) (ix2 p n)
      = score (fun k => x (ix2 p k)) (fun n' k => w (ix2 n' k)) n := by
  subst hD
  refine (matmul2_zero_apply wf x _ p n).trans ?_
  unfold score
  refine Finset.sum_congr rfl fun k _ => ?_
  rw [transpose_ix2_apply]

/-- The whole tile as a body writes it: scores, softmax along each row, product with the table. -/
def tile (D₁ : DotDims ⟨2, ![A, K]⟩ ⟨2, ![K, N]⟩ ⟨2, ![A, N]⟩) (D₂ : DotDims ⟨2, ![A, N]⟩ ⟨2, ![N, K]⟩ ⟨2, ![A, K]⟩)
    (hT : (⟨2, ![N, K]⟩ : Shape).Transposes [1, 0] ⟨2, ![K, N]⟩)
    (hR : (⟨2, ![A, N]⟩ : Shape).Reduces [1] ⟨1, ![A]⟩)
    (hC : (⟨1, ![A]⟩ : Shape).ShapeCasts ⟨2, ![A, 1]⟩)
    (hB : (⟨2, ![A, 1]⟩ : Shape).Broadcasts ⟨2, ![A, N]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (hlt : FTy.bits .bf16 < FTy.bits .f32)
    (x : FVec Ideal ⟨2, ![A, K]⟩ .f32) (w : FVec Ideal ⟨2, ![N, K]⟩ .f32) : FVec Ideal ⟨2, ![A, K]⟩ .f32 :=
  matmul D₂ none
    (truncf .bf16 (tileWeights hR hC hB hφ hmax hadd
      (matmul D₁ none (truncf .bf16 x hlt) (transpose ⟨2, ![K, N]⟩ [1, 0] (truncf .bf16 w hlt) hT)
        (constant ⟨2, ![A, N]⟩ .f32 0x00000000#32))) hlt)
    (truncf .bf16 w hlt) (constant ⟨2, ![A, K]⟩ .f32 0x00000000#32)

/-- At (p, d) the tile is the label attention of row p at entry d. -/
theorem tile_apply (D₁ : DotDims ⟨2, ![A, K]⟩ ⟨2, ![K, N]⟩ ⟨2, ![A, N]⟩) (D₂ : DotDims ⟨2, ![A, N]⟩ ⟨2, ![N, K]⟩ ⟨2, ![A, K]⟩)
    (wf₁ : DotDims.WF ⟨2, ![A, K]⟩ ⟨2, ![K, N]⟩ ⟨2, ![A, N]⟩ [1] [0] [0] [1] [] []) (hD₁ : D₁ = plain2 wf₁)
    (wf₂ : DotDims.WF ⟨2, ![A, N]⟩ ⟨2, ![N, K]⟩ ⟨2, ![A, K]⟩ [1] [0] [0] [1] [] []) (hD₂ : D₂ = plain2 wf₂)
    (hT : (⟨2, ![N, K]⟩ : Shape).Transposes [1, 0] ⟨2, ![K, N]⟩)
    (hR : (⟨2, ![A, N]⟩ : Shape).Reduces [1] ⟨1, ![A]⟩)
    (hC : (⟨1, ![A]⟩ : Shape).ShapeCasts ⟨2, ![A, 1]⟩)
    (hB : (⟨2, ![A, 1]⟩ : Shape).Broadcasts ⟨2, ![A, N]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (hlt : FTy.bits .bf16 < FTy.bits .f32)
    (x : FVec Ideal ⟨2, ![A, K]⟩ .f32) (w : FVec Ideal ⟨2, ![N, K]⟩ .f32) (p : Fin A) (d : Fin K) :
    tile D₁ D₂ hT hR hC hB hφ hmax hadd hlt x w (ix2 p d)
      = row (fun k => x (ix2 p k)) (fun n k => w (ix2 n k)) d := by
  unfold tile row
  subst hD₂
  refine (matmul2_zero_apply wf₂ _ _ p d).trans ?_
  refine Finset.sum_congr rfl fun n _ => ?_
  show tileWeights hR hC hB hφ hmax hadd _ (ix2 p n) * w (ix2 n d) = _
  rw [tileWeights_apply]
  refine congrArg (fun s => weight s n * w (ix2 n d)) (funext fun n' => ?_)
  exact tile_scores_apply D₁ wf₁ hD₁ hT (truncf .bf16 x hlt) (truncf .bf16 w hlt) p n'

end Cert.LabelAttention

end
-- ==== Proof.KernelStores.lean ====
/-
  The kernel's two stores, read at an entry of the block they write.

  At a grid point the body loads one block of 512 rows of each activation array and the two whole label tables, and
  stores, for each branch, the label attention of the 512 rows against that branch's table: the printed payloads are
  the generic tile (`Cert.LabelAttention.tile`) at 512 rows of length 256, against 512 labels for the first branch and
  1024 for the second, wrapped in the casts between [1, 512, 256] and [512, 256] — which keep the row-major position,
  so entry (0, r, d) of a block is entry (r, d) of the tile. Hence each stored block, at (u, r, d), is the label attention
  of row r of the loaded activation block at entry d, and depends on no other row.
-/
import proofs.«146571_j3624952398168_1_alg».proof.Proof.Gen.KernelIdeal.Skeleton
import proofs.«146571_j3624952398168_1_alg».proof.Proof.Gen.KernelIdeal
import proofs.«146571_j3624952398168_1_alg».proof.Proof.LibTileFlatten
import proofs.«146571_j3624952398168_1_alg».proof.Proof.LibLabelAttentionTile

noncomputable section

open scoped BigOperators

namespace Cert.KernelIdeal.Stores

open Idealize.ShloMosaic Idealize.ShloMosaic.ValueIdx Cert.KernelIdeal Cert.KernelIdeal.Gen Cert.Lib Cert.LabelAttention

/-- The first branch's value before its store is the tile at 512 rows against the 512 labels. -/
theorem intent_tile (v0 : Vec Ideal S1x512x256 .f32) (v6 : Vec Ideal S512x256 .f32) :
    k0_pay4 (F := Ideal) v0 v6
      = tile dot_S512x256_S256x512_S512x512_1_0_0_1_n_n dot_S512x512_S512x256_S512x256_1_0_0_1_n_n
          transposes_S512x256_p1_0_S256x512 reduces_S512x512_S512 shapeCasts_S512_S512x1 broadcasts_S512x1_S512x512
          (.inl rfl) rfl rfl bitsLt_bf16_f32 (shapeCast S512x256 v0 shapeCasts_S1x512x256_S512x256) v6 := rfl

/-- The second branch's value before its store is the tile at 512 rows against the 1024 labels. -/
theorem slot_tile (v3 : Vec Ideal S1x512x256 .f32) (v8 : Vec Ideal S1024x256 .f32) :
    k0_pay2 (F := Ideal) (k0_pay3 v8) (k0_pay5 v3 v8)
      = shapeCast S1x512x256
          (tile dot_S512x256_S256x1024_S512x1024_1_0_0_1_n_n dot_S512x1024_S1024x256_S512x256_1_0_0_1_n_n
            transposes_S1024x256_p1_0_S256x1024 reduces_S512x1024_S512 shapeCasts_S512_S512x1 broadcasts_S512x1_S512x1024
            (.inl rfl) rfl rfl bitsLt_bf16_f32 (shapeCast S512x256 v3 shapeCasts_S1x512x256_S512x256) v8)
          shapeCasts_S512x256_S1x512x256 := rfl

/-- Row r of a loaded [1, 512, 256] block recast as a matrix is row (0, r) of the block. -/
theorem block_row (v : Vec Ideal S1x512x256 .f32) (r : Fin 512) (k : Fin 256) :
    shapeCast S512x256 v shapeCasts_S1x512x256_S512x256 (ix2 r k) = v (ix3 (0 : Fin 1) r k) :=
  shapeCast_abn_mn_apply v shapeCasts_S1x512x256_S512x256 (0 : Fin 1) r k r (by simp)

/-- A [512, 256] matrix recast as a [1, 512, 256] block reads, at (u, r, d), the matrix at (r, d). -/
theorem store_cast (T : Vec Ideal S512x256 .f32) (u : Fin 1) (r : Fin 512) (d : Fin 256) :
    shapeCast S1x512x256 T shapeCasts_S512x256_S1x512x256 (ix3 u r d) = T (ix2 r d) :=
  shapeCast_mn_abn_apply T shapeCasts_S512x256_S1x512x256 u r d r (by have : u.val = 0 := by omega
                                                                      simp [this])

/-- The first branch's stored block at (u, r, d): the label attention of block row r against the first table. -/
theorem intent_store_apply (v0 : Vec Ideal S1x512x256 .f32) (v6 : Vec Ideal S512x256 .f32) (u : Fin 1) (r : Fin 512) (d : Fin 256) :
    k0_pay1 (F := Ideal) (k0_pay4 v0 v6) (ix3 u r d)
      = row (fun k => v0 (ix3 (0 : Fin 1) r k)) (fun n k => v6 (ix2 n k)) d := by
  refine (store_cast (k0_pay4 v0 v6) u r d).trans ?_
  rw [intent_tile]
  refine (tile_apply _ _ dot_S512x256_S256x512_S512x512_1_0_0_1_n_n_wf rfl dot_S512x512_S512x256_S512x256_1_0_0_1_n_n_wf rfl
    _ _ _ _ _ _ _ _ _ v6 r d).trans ?_
  exact congrArg (fun x => row x (fun n k => v6 (ix2 n k)) d) (funext fun k => block_row v0 r k)

/-- The second branch's stored block at (u, r, d): the label attention of block row r against the second table. -/
theorem slot_store_apply (v3 : Vec Ideal S1x512x256 .f32) (v8 : Vec Ideal S1024x256 .f32) (u : Fin 1) (r : Fin 512) (d : Fin 256) :
    k0_pay2 (F := Ideal) (k0_pay3 v8) (k0_pay5 v3 v8) (ix3 u r d)
      = row (fun k => v3 (ix3 (0 : Fin 1) r k)) (fun n k => v8 (ix2 n k)) d := by
  rw [slot_tile]
  refine (store_cast _ u r d).trans ?_
  refine (tile_apply _ _ dot_S512x256_S256x1024_S512x1024_1_0_0_1_n_n_wf rfl dot_S512x1024_S1024x256_S512x256_1_0_0_1_n_n_wf rfl
    _ _ _ _ _ _ _ _ _ v8 r d).trans ?_
  exact congrArg (fun x => row x (fun n k => v8 (ix2 n k)) d) (funext fun k => block_row v3 r k)

end Cert.KernelIdeal.Stores

end
-- ==== Proof.KernelArrays.lean ====
/-
  From the blocks the kernel writes to its two result arrays.

  The grid has 8 × 8 points; point (b, s) loads rows [512 s, 512 s + 512) of batch b of each activation array and both
  whole tables, and writes the same rows of batch b of each result. The stored block's row r is the label attention of
  the loaded block's row r, and the loaded row sits in its array where the stored row sits in the result, so what a
  point writes back is its block of ONE whole-array function — the label attention of every activation row against
  the table (`Cert.LabelAttention.whole`). The 64 blocks fill each result array (row s of batch b belongs to point
  (b, s / 512)), so after the run each result IS that function of the argument arrays.
-/
import proofs.«146571_j3624952398168_1_alg».proof.Proof.Gen.KernelIdeal.Value
import proofs.«146571_j3624952398168_1_alg».proof.Proof.KernelStores

set_option maxRecDepth 16384

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Cert.LabelAttention
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- An entry of the whole-array label attention depends on its row only: it is the row's attention, given the row's
    entries, the table's entries and the entry's last coordinate wherever they are read from. -/
theorem row_of_rows {N : ℕ} (X : S8x4096x256.Idx → EReal) (W : (⟨2, ![N, 256]⟩ : Shape).Idx → EReal) (i : S8x4096x256.Idx)
    (d : Fin 256) (x : Fin 256 → EReal) (w : Fin N → Fin 256 → EReal)
    (hx : ∀ k, x k = X (ix3 (i 0) (i 1) k)) (hw : ∀ n k, w n k = W (ix2 n k)) (hd : d = i 2) :
    row x w d = whole (B := 8) (S := 4096) (K := 256) (N := N) X W i := by
  subst hd
  rw [(funext hx : x = fun k => X (ix3 (i 0) (i 1) k)), (funext fun n => funext (hw n) : w = fun n k => W (ix2 n k))]
  rfl

/-- The printed index maps, decided over the 64 grid points: each activation window sits at its result window's block on
    the batch and row axes, the tables' one block is block (0, 0), and no window moves along the last axis. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 ∧ win0_5.index t (2 : Fin 3) = 0 :=
  (by decide +kernel : ∀ t : Fin grid0.N, _)

/-- Every block (b, q) of the first result is some point's. -/
theorem intent_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- Every block (b, q) of the second result is some point's. -/
theorem slot_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## The intent result: output window 4 -/

/-- What grid point `t` writes back to the intent result is block `t` of the label attention of the whole intent
    activations against the intent table: row r of the stored block is the attention of row r of the loaded
    activation block, which is the row of the array at the same place as the stored row. -/
theorem intent_flushed (c : Dev nD) (t : Fin cfg0.N) :
    (dats m 0 c).flushed 4 t = ((cfg0.win 4).blk t).view.read (Elt Ideal)
      (whole (B := 8) (S := 4096) (K := 256) (N := 512) (V m c main_arg0) (V m c main_arg3)) := by
  rw [Value.flushed4]
  unfold out0_4
  rw [View.canon_unit_zero zeros3]
  simp only [View.ld_unit_zero (S := S1x512x256) zeros3, View.ld_unit_zero (S := S512x256) zeros2]
  obtain ⟨a00, a01, a02, a10, a11, a12, a20, a21, a30, a31, a42, a52⟩ := index_facts t
  funext j
  obtain ⟨u, r, d, rfl⟩ : ∃ (u : Fin 1) (r : Fin 512) (d : Fin 256), j = ix3 u r d := ⟨j 0, j 1, j 2, eq_ix3 j⟩
  have hu : u.val = 0 := by omega
  refine (Stores.intent_store_apply (iblk m c 0 t) (iblk m c 2 t) u r d).trans ?_
  show row _ _ d = whole (B := 8) (S := 4096) (K := 256) (N := 512) (V m c main_arg0) (V m c main_arg3)
    (((cfg0.win 4).blk t).view.emb (ix3 u r d))
  refine row_of_rows _ _ _ d _ _ (fun k => ?_) (fun n k => ?_) ?_
  · show (V m c main_arg0 : S8x4096x256.Idx → EReal) (((cfg0.win 0).blk t).view.emb (ix3 (0 : Fin 1) r k)) = _
    refine congrArg (V m c main_arg0 : S8x4096x256.Idx → EReal) (funext fun a => Fin.ext ?_)
    match a with
    | ⟨0, _⟩ => show win0_0.index t (0 : Fin 3) * 1 + 1 * (0 : ℕ) = win0_4.index t (0 : Fin 3) * 1 + 1 * u.val; omega
    | ⟨1, _⟩ => show win0_0.index t (1 : Fin 3) * 512 + 1 * r.val = win0_4.index t (1 : Fin 3) * 512 + 1 * r.val; omega
    | ⟨2, _⟩ => show win0_0.index t (2 : Fin 3) * 256 + 1 * k.val = k.val; omega
  · show (V m c main_arg3 : S512x256.Idx → EReal) (((cfg0.win 2).blk t).view.emb (ix2 n k)) = _
    refine congrArg (V m c main_arg3 : S512x256.Idx → EReal) (funext fun a => Fin.ext ?_)
    match a with
    | ⟨0, _⟩ => show win0_2.index t (0 : Fin 2) * 512 + 1 * n.val = n.val; omega
    | ⟨1, _⟩ => show win0_2.index t (1 : Fin 2) * 256 + 1 * k.val = k.val; omega
  · apply Fin.ext
    show d.val = win0_4.index t (2 : Fin 3) * 256 + 1 * d.val
    omega

/-- An index of the intent result is in point `t`'s block iff each coordinate is in the block's range on its axis. -/
theorem intent_mem_blk (t : Fin cfg0.N) (i : S8x4096x256.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v0_0).slice (win0_4.rect t)).set ↔ _
  rw [View.set_slice_whole, Rect.mem_set_unit]
  exact Iff.rfl

/-- Every index of the intent result is written back by some point: batch b and row s belong to the point at block
    (b, s / 512). -/
theorem intent_cover (i : S8x4096x256.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  obtain ⟨t, ht⟩ := intent_onto ⟨(i 0).val, by omega⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [intent_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-- The intent result after the run: the label attention of every intent activation row against the intent table. -/
theorem intent_final (c : Dev nD) :
    (dats m 0 c).arrAt 4 cfg0.N = whole (B := 8) (S := 4096) (K := 256) (N := 512)
      (m ((c : Thread nD τ).loc main_arg0)) (m ((c : Thread nD τ).loc main_arg3)) :=
  (dats m 0 c).arrAt_eq_of_cover 4 _ (fun t _ => intent_flushed m c t) intent_cover

/-! ## The slot result: output window 5 -/

/-- What grid point `t` writes back to the slot result is block `t` of the label attention of the whole slot
    activations against the slot table: row r of the stored block is the attention of row r of the loaded
    activation block, which is the row of the array at the same place as the stored row. -/
theorem slot_flushed (c : Dev nD) (t : Fin cfg0.N) :
    (dats m 0 c).flushed 5 t = ((cfg0.win 5).blk t).view.read (Elt Ideal)
      (whole (B := 8) (S := 4096) (K := 256) (N := 1024) (V m c main_arg1) (V m c main_arg4)) := by
  rw [Value.flushed5]
  unfold out0_5
  rw [View.canon_unit_zero zeros3]
  simp only [View.ld_unit_zero (S := S1x512x256) zeros3, View.ld_unit_zero (S := S1024x256) zeros2]
  obtain ⟨a00, a01, a02, a10, a11, a12, a20, a21, a30, a31, a42, a52⟩ := index_facts t
  funext j
  obtain ⟨u, r, d, rfl⟩ : ∃ (u : Fin 1) (r : Fin 512) (d : Fin 256), j = ix3 u r d := ⟨j 0, j 1, j 2, eq_ix3 j⟩
  have hu : u.val = 0 := by omega
  refine (Stores.slot_store_apply (iblk m c 1 t) (iblk m c 3 t) u r d).trans ?_
  show row _ _ d = whole (B := 8) (S := 4096) (K := 256) (N := 1024) (V m c main_arg1) (V m c main_arg4)
    (((cfg0.win 5).blk t).view.emb (ix3 u r d))
  refine row_of_rows _ _ _ d _ _ (fun k => ?_) (fun n k => ?_) ?_
  · show (V m c main_arg1 : S8x4096x256.Idx → EReal) (((cfg0.win 1).blk t).view.emb (ix3 (0 : Fin 1) r k)) = _
    refine congrArg (V m c main_arg1 : S8x4096x256.Idx → EReal) (funext fun a => Fin.ext ?_)
    match a with
    | ⟨0, _⟩ => show win0_1.index t (0 : Fin 3) * 1 + 1 * (0 : ℕ) = win0_5.index t (0 : Fin 3) * 1 + 1 * u.val; omega
    | ⟨1, _⟩ => show win0_1.index t (1 : Fin 3) * 512 + 1 * r.val = win0_5.index t (1 : Fin 3) * 512 + 1 * r.val; omega
    | ⟨2, _⟩ => show win0_1.index t (2 : Fin 3) * 256 + 1 * k.val = k.val; omega
  · show (V m c main_arg4 : S1024x256.Idx → EReal) (((cfg0.win 3).blk t).view.emb (ix2 n k)) = _
    refine congrArg (V m c main_arg4 : S1024x256.Idx → EReal) (funext fun a => Fin.ext ?_)
    match a with
    | ⟨0, _⟩ => show win0_3.index t (0 : Fin 2) * 1024 + 1 * n.val = n.val; omega
    | ⟨1, _⟩ => show win0_3.index t (1 : Fin 2) * 256 + 1 * k.val = k.val; omega
  · apply Fin.ext
    show d.val = win0_5.index t (2 : Fin 3) * 256 + 1 * d.val
    omega

/-- An index of the slot result is in point `t`'s block iff each coordinate is in the block's range on its axis. -/
theorem slot_mem_blk (t : Fin cfg0.N) (i : S8x4096x256.Idx) :
    i ∈ ((cfg0.win 5).blk t).view.set ↔ ∀ a : Fin 3, win0_5.index t a * S1x512x256.size a ≤ (i a).val ∧ (i a).val < win0_5.index t a * S1x512x256.size a + S1x512x256.size a := by
  show i ∈ ((View.whole main_v0_1).slice (win0_5.rect t)).set ↔ _
  rw [View.set_slice_whole, Rect.mem_set_unit]
  exact Iff.rfl

/-- Every index of the slot result is written back by some point: batch b and row s belong to the point at block
    (b, s / 512). -/
theorem slot_cover (i : S8x4096x256.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 256 := (i 2).isLt
  obtain ⟨t, ht⟩ := slot_onto ⟨(i 0).val, by omega⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [slot_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 256 ≤ (i 2).val ∧ (i 2).val < win0_5.index t (2 : Fin 3) * 256 + 256; omega

/-- The slot result after the run: the label attention of every slot activation row against the slot table. -/
theorem slot_final (c : Dev nD) :
    (dats m 0 c).arrAt 5 cfg0.N = whole (B := 8) (S := 4096) (K := 256) (N := 1024)
      (m ((c : Thread nD τ).loc main_arg1)) (m ((c : Thread nD τ).loc main_arg4)) :=
  (dats m 0 c).arrAt_eq_of_cover 5 _ (fun t _ => slot_flushed m c t) slot_cover

/-! ## The run, read -/

/-- The kernel's run with both results named: each is the label attention of its activations against its table, and the
    arguments are unchanged. -/
theorem run : θ_run defs (onTc (τ := τ) (main (F := Ideal))) ⟨m, fun _ => 0, ρ⟩ fun r => ∀ c : Dev nD,
      r.2.mem ((c : Thread nD τ).loc main_v0_0) = whole (B := 8) (S := 4096) (K := 256) (N := 512)
        (m ((c : Thread nD τ).loc main_arg0)) (m ((c : Thread nD τ).loc main_arg3))
      ∧ r.2.mem ((c : Thread nD τ).loc main_v0_1) = whole (B := 8) (S := 4096) (K := 256) (N := 1024)
        (m ((c : Thread nD τ).loc main_arg1)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (intent_final m c), (h c).2.1.trans (slot_final m c), (h c).2.2⟩)
    (Value.run_blocks m ρ)

end Cert.KernelIdeal.Arrays

end
-- ==== Proof.ReferenceRows.lean ====
/-
  The reference's two results, entry by entry.

  For each branch the reference contracts the activations [8, 4096, 256] with the label table [N, 256] over the last
  axis of both (the scores [8, 4096, N]), takes a softmax along the last axis — the maximum from -∞ and against -∞,
  the subtraction, the exponential, the sum from the zero word, the division —, and contracts the weights with the
  table over the label axis. Read one operation at a time at (b, s, ·), every stage depends on activation row (b, s)
  alone, and the result at (b, s, d) is the label attention of that row at entry d (`Cert.LabelAttention.row`): the
  same expression the kernel's stored blocks hold.
-/
import proofs.«146571_j3624952398168_1_alg».proof.Proof.Gen.ReferenceIdeal.Read
import proofs.«146571_j3624952398168_1_alg».proof.Proof.LibLabelAttention

noncomputable section

open scoped BigOperators

namespace Cert.ReferenceIdeal.Rows

open Idealize.ShloMosaic Idealize.ShloMosaic.ValueIdx Cert.ReferenceIdeal Cert.ReferenceIdeal.Gen Cert.ReferenceIdeal.Read Cert.LabelAttention

/-- The index of an [a, b, n] array that reduces along its last axis to (p, q), at coordinate k, is (p, q, k). -/
theorem lift_last {a b n : ℕ} (h : (⟨3, ![a, b, n]⟩ : Shape).Reduces [2] ⟨2, ![a, b]⟩) (p : Fin a) (q : Fin b) (k : Fin n) :
    h.lift (ix2 p q) k = ix3 p q k := by
  funext d; apply Fin.ext
  match d with | ⟨0, _⟩ => rfl | ⟨1, _⟩ => rfl | ⟨2, _⟩ => rfl

/-! ## The intent branch -/

/-- The intent scores at (b, s, n): the inner product of activation row (b, s) with label row n. -/
theorem intent_scores (x : (⟨S8x4096x256, .f32⟩ : BufTy).Contents (Elt Ideal)) (w : (⟨S512x256, .f32⟩ : BufTy).Contents (Elt Ideal))
    (b : Fin 8) (s : Fin 4096) (n : Fin 512) :
    val_main_v0 (F := Ideal) x w (ix3 b s n) = score (fun k => x (ix3 b s k)) (fun n' k => w (ix2 n' k)) n := by
  rw [val_main_v0_apply]
  unfold score
  refine Finset.sum_congr rfl fun k _ => ?_
  have el : lidx_main_v0 (ix3 b s n) k = ix3 b s k :=
    funext fun a => match a with | ⟨0, _⟩ => rfl | ⟨1, _⟩ => rfl | ⟨2, _⟩ => rfl
  have er : ridx_main_v0 (ix3 b s n) k = ix2 n k :=
    funext fun a => match a with | ⟨0, _⟩ => rfl | ⟨1, _⟩ => rfl
  rw [el, er]

/-- The intent row maximum at (b, s): the fold of max over the row's scores from -∞, against -∞ once more. -/
theorem intent_rowMax (x : (⟨S8x4096x256, .f32⟩ : BufTy).Contents (Elt Ideal)) (w : (⟨S512x256, .f32⟩ : BufTy).Contents (Elt Ideal))
    (b : Fin 8) (s : Fin 4096) :
    val_main_v3 (F := Ideal) x w (ix2 b s) = rowMax (fun n => val_main_v0 (F := Ideal) x w (ix3 b s n)) := by
  have h : S8x4096x512.Reduces [2] S8x4096 := by decide
  rw [val_main_v3_apply, val_main_v2_apply, val_main_cst_0_apply]
  unfold val_main_v1 rowMax negInf
  rw [Host.reduce_eq_fold_single FloatOps.maximumf _ _ reducesTo_S8x4096x512_S8x4096_d2 h h_S_]
  have hl : (val_main_v0 (F := Ideal) x w ∘ h.lift (ix2 b s)) = fun n => val_main_v0 (F := Ideal) x w (ix3 b s n) :=
    funext fun n => congrArg (val_main_v0 (F := Ideal) x w) (lift_last h b s n)
  rw [hl]
  rfl

/-- The intent exponential at (b, s, n): of score n of row (b, s) less that row's maximum. -/
theorem intent_exp (x : (⟨S8x4096x256, .f32⟩ : BufTy).Contents (Elt Ideal)) (w : (⟨S512x256, .f32⟩ : BufTy).Contents (Elt Ideal))
    (b : Fin 8) (s : Fin 4096) (n : Fin 512) :
    val_main_v7 (F := Ideal) x w (ix3 b s n) = expShifted (fun n' => val_main_v0 (F := Ideal) x w (ix3 b s n')) n := by
  rw [val_main_v7_apply, val_main_v6_apply, val_main_v5_apply, val_main_v4_apply]
  have e : idx_main_v4 (idx_main_v5 (ix3 b s n)) = ix2 b s :=
    funext fun a => match a with | ⟨0, _⟩ => rfl | ⟨1, _⟩ => rfl
  rw [e, intent_rowMax]
  rfl

/-- The intent weight at (b, s, n): the softmax weight of label n in row (b, s). The sum's initial value is the
    zero word, which adds nothing. -/
theorem intent_weight (x : (⟨S8x4096x256, .f32⟩ : BufTy).Contents (Elt Ideal)) (w : (⟨S512x256, .f32⟩ : BufTy).Contents (Elt Ideal))
    (b : Fin 8) (s : Fin 4096) (n : Fin 512) :
    val_main_v11 (F := Ideal) x w (ix3 b s n) = weight (fun n' => val_main_v0 (F := Ideal) x w (ix3 b s n')) n := by
  rw [val_main_v11_apply, val_main_v10_apply, val_main_v9_apply]
  have e : idx_main_v9 (idx_main_v10 (ix3 b s n)) = ix2 b s :=
    funext fun a => match a with | ⟨0, _⟩ => rfl | ⟨1, _⟩ => rfl
  rw [e, val_main_v8_apply, val_main_cst_1_apply]
  unfold weight
  show Ideal.div _ (Ideal.ofBits .f32 0x00000000#32 + _) = _
  rw [Ideal.ofBits_zero_f32, zero_add, intent_exp]
  refine congrArg (Ideal.div _) (Finset.sum_congr rfl fun n' _ => ?_)
  have e' : idx_main_v8 (ix2 b s) n' = ix3 b s n' :=
    funext fun a => match a with | ⟨0, _⟩ => rfl | ⟨1, _⟩ => rfl | ⟨2, _⟩ => rfl
  rw [e', intent_exp]

/-- The intent result at (b, s, d): the label attention of activation row (b, s) at entry d. -/
theorem intent_result (x : (⟨S8x4096x256, .f32⟩ : BufTy).Contents (Elt Ideal)) (w : (⟨S512x256, .f32⟩ : BufTy).Contents (Elt Ideal))
    (b : Fin 8) (s : Fin 4096) (d : Fin 256) :
    val_main_v24 (F := Ideal) x w (ix3 b s d) = row (fun k => x (ix3 b s k)) (fun n k => w (ix2 n k)) d := by
  rw [val_main_v24_apply]
  unfold row
  refine Finset.sum_congr rfl fun n _ => ?_
  have el : lidx_main_v24 (ix3 b s d) n = ix3 b s n :=
    funext fun a => match a with | ⟨0, _⟩ => rfl | ⟨1, _⟩ => rfl | ⟨2, _⟩ => rfl
  have er : ridx_main_v24 (ix3 b s d) n = ix2 n d :=
    funext fun a => match a with | ⟨0, _⟩ => rfl | ⟨1, _⟩ => rfl
  rw [el, er, intent_weight]
  exact congrArg (fun sc => weight sc n * w (ix2 n d)) (funext fun n' => intent_scores x w b s n')

/-- The whole intent result is the label attention of every activation row against the intent table. -/
theorem intent_eq (x : (⟨S8x4096x256, .f32⟩ : BufTy).Contents (Elt Ideal)) (w : (⟨S512x256, .f32⟩ : BufTy).Contents (Elt Ideal)) :
    val_main_v24 (F := Ideal) x w = whole x w := by
  funext i
  obtain ⟨b, s, d, rfl⟩ : ∃ (b : Fin 8) (s : Fin 4096) (d : Fin 256), i = ix3 b s d := ⟨i 0, i 1, i 2, eq_ix3 i⟩
  exact intent_result x w b s d

/-! ## The slot branch -/

/-- The slot scores at (b, s, n): the inner product of activation row (b, s) with label row n. -/
theorem slot_scores (x : (⟨S8x4096x256, .f32⟩ : BufTy).Contents (Elt Ideal)) (w : (⟨S1024x256, .f32⟩ : BufTy).Contents (Elt Ideal))
    (b : Fin 8) (s : Fin 4096) (n : Fin 1024) :
    val_main_v12 (F := Ideal) x w (ix3 b s n) = score (fun k => x (ix3 b s k)) (fun n' k => w (ix2 n' k)) n := by
  rw [val_main_v12_apply]
  unfold score
  refine Finset.sum_congr rfl fun k _ => ?_
  have el : lidx_main_v12 (ix3 b s n) k = ix3 b s k :=
    funext fun a => match a with | ⟨0, _⟩ => rfl | ⟨1, _⟩ => rfl | ⟨2, _⟩ => rfl
  have er : ridx_main_v12 (ix3 b s n) k = ix2 n k :=
    funext fun a => match a with | ⟨0, _⟩ => rfl | ⟨1, _⟩ => rfl
  rw [el, er]

/-- The slot row maximum at (b, s): the fold of max over the row's scores from -∞, against -∞ once more. -/
theorem slot_rowMax (x : (⟨S8x4096x256, .f32⟩ : BufTy).Contents (Elt Ideal)) (w : (⟨S1024x256, .f32⟩ : BufTy).Contents (Elt Ideal))
    (b : Fin 8) (s : Fin 4096) :
    val_main_v15 (F := Ideal) x w (ix2 b s) = rowMax (fun n => val_main_v12 (F := Ideal) x w (ix3 b s n)) := by
  have h : S8x4096x1024.Reduces [2] S8x4096 := by decide
  rw [val_main_v15_apply, val_main_v14_apply, val_main_cst_3_apply]
  unfold val_main_v13 rowMax negInf
  rw [Host.reduce_eq_fold_single FloatOps.maximumf _ _ reducesTo_S8x4096x1024_S8x4096_d2 h h_S_]
  have hl : (val_main_v12 (F := Ideal) x w ∘ h.lift (ix2 b s)) = fun n => val_main_v12 (F := Ideal) x w (ix3 b s n) :=
    funext fun n => congrArg (val_main_v12 (F := Ideal) x w) (lift_last h b s n)
  rw [hl]
  rfl

/-- The slot exponential at (b, s, n): of score n of row (b, s) less that row's maximum. -/
theorem slot_exp (x : (⟨S8x4096x256, .f32⟩ : BufTy).Contents (Elt Ideal)) (w : (⟨S1024x256, .f32⟩ : BufTy).Contents (Elt Ideal))
    (b : Fin 8) (s : Fin 4096) (n : Fin 1024) :
    val_main_v19 (F := Ideal) x w (ix3 b s n) = expShifted (fun n' => val_main_v12 (F := Ideal) x w (ix3 b s n')) n := by
  rw [val_main_v19_apply, val_main_v18_apply, val_main_v17_apply, val_main_v16_apply]
  have e : idx_main_v16 (idx_main_v17 (ix3 b s n)) = ix2 b s :=
    funext fun a => match a with | ⟨0, _⟩ => rfl | ⟨1, _⟩ => rfl
  rw [e, slot_rowMax]
  rfl

/-- The slot weight at (b, s, n): the softmax weight of label n in row (b, s). The sum's initial value is the
    zero word, which adds nothing. -/
theorem slot_weight (x : (⟨S8x4096x256, .f32⟩ : BufTy).Contents (Elt Ideal)) (w : (⟨S1024x256, .f32⟩ : BufTy).Contents (Elt Ideal))
    (b : Fin 8) (s : Fin 4096) (n : Fin 1024) :
    val_main_v23 (F := Ideal) x w (ix3 b s n) = weight (fun n' => val_main_v12 (F := Ideal) x w (ix3 b s n')) n := by
  rw [val_main_v23_apply, val_main_v22_apply, val_main_v21_apply]
  have e : idx_main_v21 (idx_main_v22 (ix3 b s n)) = ix2 b s :=
    funext fun a => match a with | ⟨0, _⟩ => rfl | ⟨1, _⟩ => rfl
  rw [e, val_main_v20_apply, val_main_cst_4_apply]
  unfold weight
  show Ideal.div _ (Ideal.ofBits .f32 0x00000000#32 + _) = _
  rw [Ideal.ofBits_zero_f32, zero_add, slot_exp]
  refine congrArg (Ideal.div _) (Finset.sum_congr rfl fun n' _ => ?_)
  have e' : idx_main_v20 (ix2 b s) n' = ix3 b s n' :=
    funext fun a => match a with | ⟨0, _⟩ => rfl | ⟨1, _⟩ => rfl | ⟨2, _⟩ => rfl
  rw [e', slot_exp]

/-- The slot result at (b, s, d): the label attention of activation row (b, s) at entry d. -/
theorem slot_result (x : (⟨S8x4096x256, .f32⟩ : BufTy).Contents (Elt Ideal)) (w : (⟨S1024x256, .f32⟩ : BufTy).Contents (Elt Ideal))
    (b : Fin 8) (s : Fin 4096) (d : Fin 256) :
    val_main_v25 (F := Ideal) x w (ix3 b s d) = row (fun k => x (ix3 b s k)) (fun n k => w (ix2 n k)) d := by
  rw [val_main_v25_apply]
  unfold row
  refine Finset.sum_congr rfl fun n _ => ?_
  have el : lidx_main_v25 (ix3 b s d) n = ix3 b s n :=
    funext fun a => match a with | ⟨0, _⟩ => rfl | ⟨1, _⟩ => rfl | ⟨2, _⟩ => rfl
  have er : ridx_main_v25 (ix3 b s d) n = ix2 n d :=
    funext fun a => match a with | ⟨0, _⟩ => rfl | ⟨1, _⟩ => rfl
  rw [el, er, slot_weight]
  exact congrArg (fun sc => weight sc n * w (ix2 n d)) (funext fun n' => slot_scores x w b s n')

/-- The whole slot result is the label attention of every activation row against the slot table. -/
theorem slot_eq (x : (⟨S8x4096x256, .f32⟩ : BufTy).Contents (Elt Ideal)) (w : (⟨S1024x256, .f32⟩ : BufTy).Contents (Elt Ideal)) :
    val_main_v25 (F := Ideal) x w = whole x w := by
  funext i
  obtain ⟨b, s, d, rfl⟩ : ∃ (b : Fin 8) (s : Fin 4096) (d : Fin 256), i = ix3 b s d := ⟨i 0, i 1, i 2, eq_ix3 i⟩
  exact slot_result x w b s d

end Cert.ReferenceIdeal.Rows

end
-- ==== Proof.lean ====
/-
  Label attention, a Pallas kernel against its jnp reference, at the extended reals.

  Both programs take two arrays of activations [8, 4096, 256] (an intent and a slot branch), an unused integer mask, and
  two tables of label embeddings, [512, 256] and [1024, 256]. For each branch and each activation row x they form the
  scores of x against every label row, s n = ∑ k, x k * w n k, turn them into softmax weights (the exponential of each
  score less the row's largest, over the sum of those exponentials), and return the weighted sum of the label rows,
  out d = ∑ n, weight n * w n d (`Cert.LabelAttention.row`).

  The kernel does this on an 8 × 8 grid, 512 rows at a time, through 16-bit operands that are the identity at the
  extended reals, with the table transposed for the first product; the reference does it for all rows at once with two
  contractions over named axes. Every step is the same expression on both sides — the same contraction sums, the same
  fold of max from the same word for -∞, the same exponential and division, the sums' zero word adding nothing — so the
  two results agree entry by entry with no appeal to finiteness of the inputs: the precondition is never opened.

  The pieces: `KernelStores` reads each stored block at an entry (over the generic tile of `LibLabelAttentionTile`),
  `KernelArrays` assembles the 64 blocks into each whole result array, `ReferenceRows` reads the reference's two
  results at an entry. The three frames are the generated ones (the reference's is its generated run with the results
  dropped); the idealization rewrote no operation, so `preserves` is trivial.
-/
import proofs.«146571_j3624952398168_1_alg».proof.Defs
import proofs.«146571_j3624952398168_1_alg».proof.Proof.Gen.Kernel
import proofs.«146571_j3624952398168_1_alg».proof.Proof.Gen.Kernel.Skeleton
import proofs.«146571_j3624952398168_1_alg».proof.Proof.Gen.Kernel.Launch
import proofs.«146571_j3624952398168_1_alg».proof.Proof.Gen.Kernel.Points
import proofs.«146571_j3624952398168_1_alg».proof.Proof.Gen.Kernel.Frame
import proofs.«146571_j3624952398168_1_alg».proof.Proof.Gen.KernelIdeal
import proofs.«146571_j3624952398168_1_alg».proof.Proof.Gen.KernelIdeal.Skeleton
import proofs.«146571_j3624952398168_1_alg».proof.Proof.Gen.KernelIdeal.Launch
import proofs.«146571_j3624952398168_1_alg».proof.Proof.Gen.KernelIdeal.Points
import proofs.«146571_j3624952398168_1_alg».proof.Proof.Gen.KernelIdeal.Frame
import proofs.«146571_j3624952398168_1_alg».proof.Proof.Gen.ReferenceIdeal
import proofs.«146571_j3624952398168_1_alg».proof.Proof.Gen.Pre_finite_inputs
import proofs.«146571_j3624952398168_1_alg».proof.Proof.Gen.KernelIdeal.Value
import proofs.«146571_j3624952398168_1_alg».proof.Proof.Gen.ReferenceIdeal.Run
import proofs.«146571_j3624952398168_1_alg».proof.Proof.Gen.ReferenceIdeal.Read
import proofs.«146571_j3624952398168_1_alg».proof.Proof.KernelArrays
import proofs.«146571_j3624952398168_1_alg».proof.Proof.ReferenceRows
import Idealize.ShloMosaic.Adequacy
import Idealize.ShloMosaic.Init

noncomputable section

namespace Cert.Proof

open Idealize.ShloMosaic Idealize.ShloMosaic.TcCoe Idealize.SL.Sem Cert.LabelAttention

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with each result at the label attention of its
    activations against its table — the kernel's arrays assembled from its blocks, the reference's read entry by entry. -/
theorem algebraic : Cert.algebraic_KernelIdeal_ReferenceIdeal := by
  intro m ρ m' ρ' _ hagree
  refine ⟨fun c => whole (B := 8) (S := 4096) (K := 256) (N := 512)
      (m ((c : Thread Cert.KernelIdeal.nD Cert.KernelIdeal.τ).loc Cert.KernelIdeal.main_arg0))
      (m ((c : Thread Cert.KernelIdeal.nD Cert.KernelIdeal.τ).loc Cert.KernelIdeal.main_arg3)),
    fun c => whole (B := 8) (S := 4096) (K := 256) (N := 1024)
      (m ((c : Thread Cert.KernelIdeal.nD Cert.KernelIdeal.τ).loc Cert.KernelIdeal.main_arg1))
      (m ((c : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.Rows.intent_eq, (hagree c).1, (hagree c).2.2.2.1]
  · rw [Cert.ReferenceIdeal.Read.val_main_v25_eq, Cert.ReferenceIdeal.Rows.slot_eq, (hagree c).2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
